-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S16x2048x2048 : Shape := ⟨3, ![16, 2048, 2048]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel
  bcast_S_S16x2048x2048 : S_.BroadcastsInDim S16x2048x2048 (![] : Fin 0 → Fin S16x2048x2048.rank)
  reducesTo_S16x2048x2048_S_d0_1_2 : S16x2048x2048.ReducesTo [0, 1, 2] S_

variable [Facts]

def fn_part1 {F : FTy → Type} [FloatOps F] (main_v13 : IVec S_ 1) (main_v16 : IVec S16x2048x2048 1) : IVec S_ 1 :=
  let main_c_5 : IVec S_ 1 := constantI S_ 1 1#1
  let main_v17 : IVec S_ 1 := (fun x v => Host.reduce IntOp.andi x v reducesTo_S16x2048x2048_S_d0_1_2 h_S_) main_v16 main_c_5
  let main_v18 : IVec S_ 1 := andi main_v13 main_v17
  main_v18

def fn {F : FTy → Type} [FloatOps F] (main_arg0 : FVec F S2x16x2048x64 .f32) (main_arg1 : FVec F S2x16x2048x64 .f32) (main_arg2 : FVec F S2x16x2048x64 .f32) (main_arg3 : FVec F S16x2048x2048 .f32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  let main_v14 : FVec F S16x2048x2048 .f32 := Host.absf main_arg3
  let main_cst_4 : FVec F S_ .f32 := constant S_ .f32 0x7F800000#32
  let main_v15 : FVec F S16x2048x2048 .f32 := broadcastInDim S16x2048x2048 ![] bcast_S_S16x2048x2048 main_cst_4
  let main_v16 : IVec S16x2048x2048 1 := cmpf .olt main_v14 main_v15
  fn_part1 (F := F) main_v13 main_v16
-- ==== Kernel.lean ====
abbrev S2x16x2048x64 : Shape := ⟨4, ![2, 16, 2048, 64]⟩
abbrev S16x2048x2048 : Shape := ⟨3, ![16, 2048, 2048]⟩
abbrev S2x16x2048x2048 : Shape := ⟨4, ![2, 16, 2048, 2048]⟩
abbrev S2x1x2048x64 : Shape := ⟨4, ![2, 1, 2048, 64]⟩
abbrev S2x1x256x64 : Shape := ⟨4, ![2, 1, 256, 64]⟩
abbrev S1x2048x256 : Shape := ⟨3, ![1, 2048, 256]⟩
abbrev S2x1x2048x256 : Shape := ⟨4, ![2, 1, 2048, 256]⟩
abbrev S2x2048x64 : Shape := ⟨3, ![2, 2048, 64]⟩
abbrev S2x256x64 : Shape := ⟨3, ![2, 256, 64]⟩
abbrev S2x2048x256 : Shape := ⟨3, ![2, 2048, 256]⟩
abbrev S2048x256 : Shape := ⟨2, ![2048, 256]⟩

abbrev nBuf : Space → Nat
  | .hbm => 6
  | .vmem => 13
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S16x2048x2048, .f32⟩
  | .hbm, ⟨4, _⟩ => ⟨S2x16x2048x64, .f32⟩
  | .hbm, ⟨5, _⟩ => ⟨S2x16x2048x2048, .f32⟩
  | .local _ .vmem, ⟨0, _⟩ => ⟨S2x1x2048x64, .f32⟩
  | .local _ .vmem, ⟨1, _⟩ => ⟨S2x1x2048x64, .f32⟩
  | .local _ .vmem, ⟨2, _⟩ => ⟨S2x1x256x64, .f32⟩
  | .local _ .vmem, ⟨3, _⟩ => ⟨S2x1x256x64, .f32⟩
  | .local _ .vmem, ⟨4, _⟩ => ⟨S2x1x256x64, .f32⟩
  | .local _ .vmem, ⟨5, _⟩ => ⟨S2x1x256x64, .f32⟩
  | .local _ .vmem, ⟨6, _⟩ => ⟨S1x2048x256, .f32⟩
  | .local _ .vmem, ⟨7, _⟩ => ⟨S1x2048x256, .f32⟩
  | .local _ .vmem, ⟨8, _⟩ => ⟨S2x1x2048x64, .f32⟩
  | .local _ .vmem, ⟨9, _⟩ => ⟨S2x1x2048x64, .f32⟩
  | .local _ .vmem, ⟨10, _⟩ => ⟨S2x1x2048x256, .f32⟩
  | .local _ .vmem, ⟨11, _⟩ => ⟨S2x1x2048x256, .f32⟩
  | .local _ .vmem, ⟨12, _⟩ => ⟨S2x2048x64, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v28 : BitVec 1 := Scalar.cmpi .eq arg1 c7_i32
  let v29 : BitVec 32 := Scalar.extui v28
  let c0_i32_26 : BitVec 32 := 0#32
  let v30 : BitVec 1 := Scalar.cmpi .ne v29 c0_i32_26
  v30

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

abbrev stage0_0 : Fin 2 → Memref sig .tc .vmem S2x1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x1x256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1x256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1x2048x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x1x2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  inb_S2x2048x64_S2x2048x64_0_0_0 : ∀ a, (![0, 0, 0] : Fin 3 → Nat) a + S2x2048x64.size a ≤ S2x2048x64.size a
  h_S2x2048x64 : 0 < S2x2048x64.numel
  shapeCasts_S2x2048x64_S2x2048x64 : S2x2048x64.ShapeCasts S2x2048x64
  inb_S2x1x2048x64_S2x1x2048x64_0_0_0_0 : ∀ a, (![0, 0, 0, 0] : Fin 4 → Nat) a + S2x1x2048x64.size a ≤ S2x1x2048x64.size a
  h_S2x1x2048x64 : 0 < S2x1x2048x64.numel
  shapeCasts_S2x1x2048x64_S2x2048x64 : S2x1x2048x64.ShapeCasts S2x2048x64
  bitsLt_bf16_f32 : FTy.bits .bf16 < FTy.bits .f32
  inb_S2x1x256x64_S2x1x256x64_0_0_0_0 : ∀ a, (![0, 0, 0, 0] : Fin 4 → Nat) a + S2x1x256x64.size a ≤ S2x1x256x64.size a
  h_S2x1x256x64 : 0 < S2x1x256x64.numel
  shapeCasts_S2x1x256x64_S2x256x64 : S2x1x256x64.ShapeCasts S2x256x64
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  shapeCasts_S2048x256_S1x2048x256 : S2048x256.ShapeCasts S1x2048x256
  broadcasts_S1x2048x256_S2x2048x256 : S1x2048x256.Broadcasts S2x2048x256
  inb_S2x1x2048x256_S2x1x2048x256_0_0_0_0 : ∀ a, (![0, 0, 0, 0] : Fin 4 → Nat) a + S2x1x2048x256.size a ≤ S2x1x2048x256.size a
  h_S2x1x2048x256 : 0 < S2x1x2048x256.numel
  shapeCasts_S2x1x2048x256_S2x2048x256 : S2x1x2048x256.ShapeCasts S2x2048x256
  shapeCasts_S2x2048x256_S2x1x2048x256 : S2x2048x256.ShapeCasts S2x1x2048x256
  shapeCasts_S2x2048x64_S2x1x2048x64 : S2x2048x64.ShapeCasts S2x1x2048x64
  dot_S2x2048x64_S2x256x64_S2x2048x256_2_2_1_1_0_0_wf : DotDims.WF S2x2048x64 S2x256x64 S2x2048x256 [2] [2] [1] [1] [0] [0]
  dot_S2x2048x256_S2x256x64_S2x2048x64_2_1_1_2_0_0_wf : DotDims.WF S2x2048x256 S2x256x64 S2x2048x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1x2048x64.size a ≤ S2x16x2048x64.size a
  hwx0_0 : ∀ i : grid0.Coords, EltTy.bits .f32 = 32 ∨ (Rect.block (s := S2x16x2048x64) S2x1x2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1x256x64.size a ≤ S2x16x2048x64.size a
  hwx0_1 : ∀ i : grid0.Coords, EltTy.bits .f32 = 32 ∨ (Rect.block (s := S2x16x2048x64) S2x1x256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x1x256x64.size a ≤ S2x16x2048x64.size a
  hwx0_2 : ∀ i : grid0.Coords, EltTy.bits .f32 = 32 ∨ (Rect.block (s := S2x16x2048x64) S2x1x256x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x256.size a ≤ S16x2048x2048.size a
  hwx0_3 : ∀ i : grid0.Coords, EltTy.bits .f32 = 32 ∨ (Rect.block (s := S16x2048x2048) S1x2048x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x1x2048x64.size a ≤ S2x16x2048x64.size a
  hwx0_4 : ∀ i : grid0.Coords, EltTy.bits .f32 = 32 ∨ (Rect.block (s := S2x16x2048x64) S2x1x2048x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x1x2048x256.size a ≤ S2x16x2048x2048.size a
  hwx0_5 : ∀ i : grid0.Coords, EltTy.bits .f32 = 32 ∨ (Rect.block (s := S2x16x2048x2048) S2x1x2048x256.size (cc0_transform_5 i) (hinb0_5 i)).WholeWords (EltTy.packing .f32)

variable [Facts₀]

def dot_S2x2048x64_S2x256x64_S2x2048x256_2_2_1_1_0_0 : DotDims S2x2048x64 S2x256x64 S2x2048x256 where
  lhsContracting := [2]
  rhsContracting := [2]
  lhsNonContracting := [1]
  rhsNonContracting := [1]
  lhsBatch := [0]
  rhsBatch := [0]
  wf := dot_S2x2048x64_S2x256x64_S2x2048x256_2_2_1_1_0_0_wf
def dot_S2x2048x256_S2x256x64_S2x2048x64_2_1_1_2_0_0 : DotDims S2x2048x256 S2x256x64 S2x2048x64 where
  lhsContracting := [2]
  rhsContracting := [1]
  lhsNonContracting := [1]
  rhsNonContracting := [2]
  lhsBatch := [0]
  rhsBatch := [0]
  wf := dot_S2x2048x256_S2x256x64_S2x2048x64_2_1_1_2_0_0_wf

abbrev win0_0 : Pipeline.Window sig grid0 :=
  Pipeline.Window.ofSpec (Memref.whole main_arg0) S2x1x2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x1x256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x1x256x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x2048x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S2x1x2048x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S2x1x2048x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun _ => false | ⟨_ + 6, h⟩ => absurd h (Nat.not_lt.2 (Nat.le_add_left _ _))

class Facts : Prop extends Facts₀ where

variable [Facts]
-- ==== ReferenceIdeal.lean ====
abbrev S2x16x2048x64 : Shape := ⟨4, ![2, 16, 2048, 64]⟩
abbrev S16x2048x2048 : Shape := ⟨3, ![16, 2048, 2048]⟩
abbrev S2x16x2048x2048 : Shape := ⟨4, ![2, 16, 2048, 2048]⟩
abbrev S1x16x2048x2048 : Shape := ⟨4, ![1, 16, 2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S16x2048x2048, .f32⟩
  | .hbm, ⟨4, _⟩ => ⟨S2x16x2048x2048, .f32⟩
  | .hbm, ⟨5, _⟩ => ⟨S1x16x2048x2048, .f32⟩
  | .hbm, ⟨6, _⟩ => ⟨S2x16x2048x2048, .f32⟩
  | .hbm, ⟨7, _⟩ => ⟨S2x16x2048x2048, .f32⟩
  | .hbm, ⟨8, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S16x2048x2048_S1x16x2048x2048_1_2_3 : S16x2048x2048.BroadcastsInDim S1x16x2048x2048 (![1, 2, 3] : Fin 3 → Fin S1x16x2048x2048.rank)
  bcast_S1x16x2048x2048_S2x16x2048x2048_0_1_2_3 : S1x16x2048x2048.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Pieces.lean ====
/-
  What the kernel body leaves behind at a grid point, as values.

  The body runs in one of three ways, according to the position `k` of the point along the key-tile axis:
  at `k = 0` it first clears the accumulator; at `k = 7` it also copies the accumulator to the output block;
  in between it does neither. In every case it

    * stores the tile of masked scores (a function of the Q, K and D blocks alone) into the second output's block, and
    * replaces the accumulator `acc` by `acc + (masked scores) · (V block)`, where at `k = 0` the `acc` read back is
      the zero block just stored.

  The frame run records these as lists of covering stores; read back through the covering, each list is one value:
  the corresponding pure payload of the loaded blocks. At `k = 7` the output block is the new accumulator with the
  unit head axis put back.
-/
import proofs.«145245_j6743098655213_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## The masked-scores block: the same payload in all three cases -/

/-- At `k = 0` the second output's block is left holding the tile of masked scores. -/
theorem msrBlock_A (c : Dev nD) (i : grid0.Coords) (a2 : Memref sig .tc .vmem S2x1x2048x64 .f32) (h2 : a2.IsWhole) (a3 : Memref sig .tc .vmem S2x1x256x64 .f32) (h3 : a3.IsWhole) (a4 : Memref sig .tc .vmem S2x1x256x64 .f32) (h4 : a4.IsWhole) (a5 : Memref sig .tc .vmem S1x2048x256 .f32) (h5 : a5.IsWhole) (a6 : Memref sig .tc .vmem S2x1x2048x64 .f32) (h6 : a6.IsWhole) (a7 : Memref sig .tc .vmem S2x1x2048x256 .f32) (h7 : a7.IsWhole) (a8 : Memref sig .tc .vmem S2x2048x64 .f32) (h8 : a8.IsWhole) (hc0 : cond0_0 i) (hc1 : ¬cond0_1 i) (x0 : Vec F S2x1x2048x64 .f32) (x1 : Vec F S2x1x256x64 .f32) (x2 : Vec F S2x1x256x64 .f32) (x3 : Vec F S1x2048x256 .f32) :
    out0_A_5 c i a2 h2 a3 h3 a4 h4 a5 h5 a6 h6 a7 h7 a8 h8 hc0 hc1 x0 x1 x2 x3 = k0_pay5 x0 x1 x3 := by
  unfold out0_A_5
  rw [View.read_writes_eq_canon _ _ _ (cover0_A_5 c i a2 h2 a3 h3 a4 h4 a5 h5 a6 h6 a7 h7 a8 h8 hc0 hc1 x0 x1 x2 x3)]
  unfold kernelRun0_A
  dsimp only
  sl_unfold_words
  rw [View.canon_unit_zero hz4]
  simp only [View.readAt_eq_ld, h2.read_unread, h3.read_unread, h4.read_unread, h5.read_unread, h8.read_unread, View.ld_unit_zero (S := S2x1x2048x64) hz4, View.ld_unit_zero (S := S2x1x256x64) hz4, View.ld_unit_zero (S := S1x2048x256) hz3, View.ld_unit_zero (S := S2x2048x64) hz3]

/-- At `0 < k < 7` likewise. -/
theorem msrBlock_B (c : Dev nD) (i : grid0.Coords) (a2 : Memref sig .tc .vmem S2x1x2048x64 .f32) (h2 : a2.IsWhole) (a3 : Memref sig .tc .vmem S2x1x256x64 .f32) (h3 : a3.IsWhole) (a4 : Memref sig .tc .vmem S2x1x256x64 .f32) (h4 : a4.IsWhole) (a5 : Memref sig .tc .vmem S1x2048x256 .f32) (h5 : a5.IsWhole) (a6 : Memref sig .tc .vmem S2x1x2048x64 .f32) (h6 : a6.IsWhole) (a7 : Memref sig .tc .vmem S2x1x2048x256 .f32) (h7 : a7.IsWhole) (a8 : Memref sig .tc .vmem S2x2048x64 .f32) (h8 : a8.IsWhole) (hc0 : ¬cond0_0 i) (hc1 : ¬cond0_1 i) (x0 : Vec F S2x1x2048x64 .f32) (x1 : Vec F S2x1x256x64 .f32) (x2 : Vec F S2x1x256x64 .f32) (x3 : Vec F S1x2048x256 .f32) (xs0 : Vec F S2x2048x64 .f32) :
    out0_B_5 c i a2 h2 a3 h3 a4 h4 a5 h5 a6 h6 a7 h7 a8 h8 hc0 hc1 x0 x1 x2 x3 xs0 = k0_pay5 x0 x1 x3 := by
  unfold out0_B_5
  rw [View.read_writes_eq_canon _ _ _ (cover0_B_5 c i a2 h2 a3 h3 a4 h4 a5 h5 a6 h6 a7 h7 a8 h8 hc0 hc1 x0 x1 x2 x3 xs0)]
  unfold kernelRun0_B
  dsimp only
  sl_unfold_words
  rw [View.canon_unit_zero hz4]
  simp only [View.readAt_eq_ld, h2.read_unread, h3.read_unread, h4.read_unread, h5.read_unread, h8.read_unread, View.ld_unit_zero (S := S2x1x2048x64) hz4, View.ld_unit_zero (S := S2x1x256x64) hz4, View.ld_unit_zero (S := S1x2048x256) hz3, View.ld_unit_zero (S := S2x2048x64) hz3]

/-- At `k = 7` likewise. -/
theorem msrBlock_C (c : Dev nD) (i : grid0.Coords) (a2 : Memref sig .tc .vmem S2x1x2048x64 .f32) (h2 : a2.IsWhole) (a3 : Memref sig .tc .vmem S2x1x256x64 .f32) (h3 : a3.IsWhole) (a4 : Memref sig .tc .vmem S2x1x256x64 .f32) (h4 : a4.IsWhole) (a5 : Memref sig .tc .vmem S1x2048x256 .f32) (h5 : a5.IsWhole) (a6 : Memref sig .tc .vmem S2x1x2048x64 .f32) (h6 : a6.IsWhole) (a7 : Memref sig .tc .vmem S2x1x2048x256 .f32) (h7 : a7.IsWhole) (a8 : Memref sig .tc .vmem S2x2048x64 .f32) (h8 : a8.IsWhole) (hc0 : ¬cond0_0 i) (hc1 : cond0_1 i) (x0 : Vec F S2x1x2048x64 .f32) (x1 : Vec F S2x1x256x64 .f32) (x2 : Vec F S2x1x256x64 .f32) (x3 : Vec F S1x2048x256 .f32) (xs0 : Vec F S2x2048x64 .f32) :
    out0_C_5 c i a2 h2 a3 h3 a4 h4 a5 h5 a6 h6 a7 h7 a8 h8 hc0 hc1 x0 x1 x2 x3 xs0 = k0_pay5 x0 x1 x3 := by
  unfold out0_C_5
  rw [View.read_writes_eq_canon _ _ _ (cover0_C_5 c i a2 h2 a3 h3 a4 h4 a5 h5 a6 h6 a7 h7 a8 h8 hc0 hc1 x0 x1 x2 x3 xs0)]
  unfold kernelRun0_C
  dsimp only
  sl_unfold_words
  rw [View.canon_unit_zero hz4]
  simp only [View.readAt_eq_ld, h2.read_unread, h3.read_unread, h4.read_unread, h5.read_unread, h8.read_unread, View.ld_unit_zero (S := S2x1x2048x64) hz4, View.ld_unit_zero (S := S2x1x256x64) hz4, View.ld_unit_zero (S := S1x2048x256) hz3, View.ld_unit_zero (S := S2x2048x64) hz3]

/-! ## The accumulator -/

/-- At `k = 0` the accumulator ends at `0 + (masked scores) · V`: the zero block is stored, read back and added to. -/
theorem acc_A (c : Dev nD) (i : grid0.Coords) (a2 : Memref sig .tc .vmem S2x1x2048x64 .f32) (h2 : a2.IsWhole) (a3 : Memref sig .tc .vmem S2x1x256x64 .f32) (h3 : a3.IsWhole) (a4 : Memref sig .tc .vmem S2x1x256x64 .f32) (h4 : a4.IsWhole) (a5 : Memref sig .tc .vmem S1x2048x256 .f32) (h5 : a5.IsWhole) (a6 : Memref sig .tc .vmem S2x1x2048x64 .f32) (h6 : a6.IsWhole) (a7 : Memref sig .tc .vmem S2x1x2048x256 .f32) (h7 : a7.IsWhole) (a8 : Memref sig .tc .vmem S2x2048x64 .f32) (h8 : a8.IsWhole) (hc0 : cond0_0 i) (hc1 : ¬cond0_1 i) (x0 : Vec F S2x1x2048x64 .f32) (x1 : Vec F S2x1x256x64 .f32) (x2 : Vec F S2x1x256x64 .f32) (x3 : Vec F S1x2048x256 .f32) :
    sout0_A_0 c i a2 h2 a3 h3 a4 h4 a5 h5 a6 h6 a7 h7 a8 h8 hc0 hc1 x0 x1 x2 x3 = k0_pay1 (k0_pay6 x0 x1 x2 x3 (k0_pay3 (F := F))) := by
  unfold sout0_A_0
  rw [View.read_writes_eq_canon _ _ _ (scover0_A_0 c i a2 h2 a3 h3 a4 h4 a5 h5 a6 h6 a7 h7 a8 h8 hc0 hc1 x0 x1 x2 x3)]
  unfold kernelRun0_A
  dsimp only
  sl_unfold_words
  rw [View.canon_cons_unit_zero (S := S2x2048x64) hz3]
  simp only [View.readCov_unit_zero (S := S2x2048x64) _ hz3, View.readAt_eq_ld, h2.read_unread, h3.read_unread, h4.read_unread, h5.read_unread, h8.read_unread, View.ld_unit_zero (S := S2x1x2048x64) hz4, View.ld_unit_zero (S := S2x1x256x64) hz4, View.ld_unit_zero (S := S1x2048x256) hz3, View.ld_unit_zero (S := S2x2048x64) hz3]

/-- At `0 < k < 7` the accumulator `acc` the previous point left becomes `acc + (masked scores) · V`. -/
theorem acc_B (c : Dev nD) (i : grid0.Coords) (a2 : Memref sig .tc .vmem S2x1x2048x64 .f32) (h2 : a2.IsWhole) (a3 : Memref sig .tc .vmem S2x1x256x64 .f32) (h3 : a3.IsWhole) (a4 : Memref sig .tc .vmem S2x1x256x64 .f32) (h4 : a4.IsWhole) (a5 : Memref sig .tc .vmem S1x2048x256 .f32) (h5 : a5.IsWhole) (a6 : Memref sig .tc .vmem S2x1x2048x64 .f32) (h6 : a6.IsWhole) (a7 : Memref sig .tc .vmem S2x1x2048x256 .f32) (h7 : a7.IsWhole) (a8 : Memref sig .tc .vmem S2x2048x64 .f32) (h8 : a8.IsWhole) (hc0 : ¬cond0_0 i) (hc1 : ¬cond0_1 i) (x0 : Vec F S2x1x2048x64 .f32) (x1 : Vec F S2x1x256x64 .f32) (x2 : Vec F S2x1x256x64 .f32) (x3 : Vec F S1x2048x256 .f32) (xs0 : Vec F S2x2048x64 .f32) :
    sout0_B_0 c i a2 h2 a3 h3 a4 h4 a5 h5 a6 h6 a7 h7 a8 h8 hc0 hc1 x0 x1 x2 x3 xs0 = k0_pay1 (k0_pay6 x0 x1 x2 x3 xs0) := by
  unfold sout0_B_0
  rw [View.read_writes_eq_canon _ _ _ (scover0_B_0 c i a2 h2 a3 h3 a4 h4 a5 h5 a6 h6 a7 h7 a8 h8 hc0 hc1 x0 x1 x2 x3 xs0)]
  unfold kernelRun0_B
  dsimp only
  sl_unfold_words
  rw [View.canon_unit_zero hz3]
  simp only [View.readAt_eq_ld, h2.read_unread, h3.read_unread, h4.read_unread, h5.read_unread, h8.read_unread, View.ld_unit_zero (S := S2x1x2048x64) hz4, View.ld_unit_zero (S := S2x1x256x64) hz4, View.ld_unit_zero (S := S1x2048x256) hz3, View.ld_unit_zero (S := S2x2048x64) hz3]

/-- At `k = 7` likewise. -/
theorem acc_C (c : Dev nD) (i : grid0.Coords) (a2 : Memref sig .tc .vmem S2x1x2048x64 .f32) (h2 : a2.IsWhole) (a3 : Memref sig .tc .vmem S2x1x256x64 .f32) (h3 : a3.IsWhole) (a4 : Memref sig .tc .vmem S2x1x256x64 .f32) (h4 : a4.IsWhole) (a5 : Memref sig .tc .vmem S1x2048x256 .f32) (h5 : a5.IsWhole) (a6 : Memref sig .tc .vmem S2x1x2048x64 .f32) (h6 : a6.IsWhole) (a7 : Memref sig .tc .vmem S2x1x2048x256 .f32) (h7 : a7.IsWhole) (a8 : Memref sig .tc .vmem S2x2048x64 .f32) (h8 : a8.IsWhole) (hc0 : ¬cond0_0 i) (hc1 : cond0_1 i) (x0 : Vec F S2x1x2048x64 .f32) (x1 : Vec F S2x1x256x64 .f32) (x2 : Vec F S2x1x256x64 .f32) (x3 : Vec F S1x2048x256 .f32) (xs0 : Vec F S2x2048x64 .f32) :
    sout0_C_0 c i a2 h2 a3 h3 a4 h4 a5 h5 a6 h6 a7 h7 a8 h8 hc0 hc1 x0 x1 x2 x3 xs0 = k0_pay1 (k0_pay6 x0 x1 x2 x3 xs0) := by
  unfold sout0_C_0
  rw [View.read_writes_eq_canon _ _ _ (scover0_C_0 c i a2 h2 a3 h3 a4 h4 a5 h5 a6 h6 a7 h7 a8 h8 hc0 hc1 x0 x1 x2 x3 xs0)]
  unfold kernelRun0_C
  dsimp only
  sl_unfold_words
  rw [View.canon_unit_zero hz3]
  simp only [View.readAt_eq_ld, h2.read_unread, h3.read_unread, h4.read_unread, h5.read_unread, h8.read_unread, View.ld_unit_zero (S := S2x1x2048x64) hz4, View.ld_unit_zero (S := S2x1x256x64) hz4, View.ld_unit_zero (S := S1x2048x256) hz3, View.ld_unit_zero (S := S2x2048x64) hz3]

/-! ## The first output's block, written at `k = 7` only -/

/-- At `k = 7` the first output's block is the accumulator just updated, read back, with the unit head axis restored. -/
theorem outBlock_C (c : Dev nD) (i : grid0.Coords) (a2 : Memref sig .tc .vmem S2x1x2048x64 .f32) (h2 : a2.IsWhole) (a3 : Memref sig .tc .vmem S2x1x256x64 .f32) (h3 : a3.IsWhole) (a4 : Memref sig .tc .vmem S2x1x256x64 .f32) (h4 : a4.IsWhole) (a5 : Memref sig .tc .vmem S1x2048x256 .f32) (h5 : a5.IsWhole) (a6 : Memref sig .tc .vmem S2x1x2048x64 .f32) (h6 : a6.IsWhole) (a7 : Memref sig .tc .vmem S2x1x2048x256 .f32) (h7 : a7.IsWhole) (a8 : Memref sig .tc .vmem S2x2048x64 .f32) (h8 : a8.IsWhole) (hc0 : ¬cond0_0 i) (hc1 : cond0_1 i) (x0 : Vec F S2x1x2048x64 .f32) (x1 : Vec F S2x1x256x64 .f32) (x2 : Vec F S2x1x256x64 .f32) (x3 : Vec F S1x2048x256 .f32) (xs0 : Vec F S2x2048x64 .f32) :
    out0_C_4 c i a2 h2 a3 h3 a4 h4 a5 h5 a6 h6 a7 h7 a8 h8 hc0 hc1 x0 x1 x2 x3 xs0 = k0_pay2 (k0_pay1 (k0_pay6 x0 x1 x2 x3 xs0)) := by
  unfold out0_C_4
  rw [View.read_writes_eq_canon _ _ _ (cover0_C_4 c i a2 h2 a3 h3 a4 h4 a5 h5 a6 h6 a7 h7 a8 h8 hc0 hc1 x0 x1 x2 x3 xs0)]
  unfold kernelRun0_C
  dsimp only
  sl_unfold_words
  rw [View.canon_unit_zero hz4]
  simp only [View.readCov_unit_zero (S := S2x2048x64) _ hz3, View.readAt_eq_ld, h2.read_unread, h3.read_unread, h4.read_unread, h5.read_unread, h8.read_unread, View.ld_unit_zero (S := S2x1x2048x64) hz4, View.ld_unit_zero (S := S2x1x256x64) hz4, View.ld_unit_zero (S := S1x2048x256) hz3, View.ld_unit_zero (S := S2x2048x64) hz3]

end Cert.KernelIdeal.Pieces

end
-- ==== Proof.Dots.lean ====
/-
  The kernel body's two matrix products, read at one entry over the extended reals.

  Both are batched over the leading axis (the two batches) and contract one axis into a zero accumulator, so an
  entry is a plain finite sum:

    * scores:  [2, 2048, 64] · [2, 256, 64], contracting the feature axis of both:
               entry (b, s, t) is  Σ_d q[b, s, d] · k[b, t, d];
    * update:  [2, 2048, 256] · [2, 256, 64], contracting the key axis (last of the left, middle of the right):
               entry (b, s, d) is  Σ_t p[b, s, t] · v[b, t, d].

  Each operand index of the contraction is computed axis by axis from the dimension numbers (a batch axis and a free
  axis copy a coordinate of the entry, the contracted axis carries the summation index), then the sum over the
  one-axis contraction index is re-indexed by that axis' coordinate.
-/
import proofs.«145245_j6743098655213_1_alg».proof.Proof.Gen.KernelIdeal
import Idealize.ShloMosaic.Lib.ValueIdx
import Idealize.ShloMosaic.PureOps.Ideal.Laws

noncomputable section

open scoped BigOperators

namespace Cert.KernelIdeal.Dots

open Cert.KernelIdeal Cert.KernelIdeal.Gen Idealize.ShloMosaic Idealize.ShloMosaic.ValueIdx

/-- The dimension numbers of the scores product. -/
abbrev dQK : DotDims S2x2048x64 S2x256x64 S2x2048x256 := dot_S2x2048x64_S2x256x64_S2x2048x256_2_2_1_1_0_0
/-- The dimension numbers of the update product. -/
abbrev dPV : DotDims S2x2048x256 S2x256x64 S2x2048x64 := dot_S2x2048x256_S2x256x64_S2x2048x64_2_1_1_2_0_0

/-! ## The scores product's operand indices -/

theorem qk_lhs0 (i : S2x2048x256.Idx) (q : dQK.contr.Idx) : (dQK.lhsIdx i q 0).val = (i 0).val := by
  unfold DotDims.lhsIdx
  rw [dif_pos (show (0 : Fin S2x2048x64.rank) ∈ dQK.lhsBatch by decide)]
  rfl
theorem qk_lhs1 (i : S2x2048x256.Idx) (q : dQK.contr.Idx) : (dQK.lhsIdx i q 1).val = (i 1).val := by
  unfold DotDims.lhsIdx
  rw [dif_neg (show ¬(1 : Fin S2x2048x64.rank) ∈ dQK.lhsBatch by decide),
    dif_pos (show (1 : Fin S2x2048x64.rank) ∈ dQK.lhsNonContracting by decide)]
  rfl
theorem qk_lhs2 (i : S2x2048x256.Idx) (q : dQK.contr.Idx) : (dQK.lhsIdx i q 2).val = (q ⟨0, by decide⟩).val :=
  dQK.lhsIdx_val_of_single rfl i q
theorem qk_rhs0 (i : S2x2048x256.Idx) (q : dQK.contr.Idx) : (dQK.rhsIdx i q 0).val = (i 0).val := by
  unfold DotDims.rhsIdx
  rw [dif_pos (show (0 : Fin S2x256x64.rank) ∈ dQK.rhsBatch by decide)]
  rfl
theorem qk_rhs1 (i : S2x2048x256.Idx) (q : dQK.contr.Idx) : (dQK.rhsIdx i q 1).val = (i 2).val := by
  unfold DotDims.rhsIdx
  rw [dif_neg (show ¬(1 : Fin S2x256x64.rank) ∈ dQK.rhsBatch by decide),
    dif_pos (show (1 : Fin S2x256x64.rank) ∈ dQK.rhsNonContracting by decide)]
  rfl
theorem qk_rhs2 (i : S2x2048x256.Idx) (q : dQK.contr.Idx) : (dQK.rhsIdx i q 2).val = (q ⟨0, by decide⟩).val :=
  dQK.rhsIdx_val_of_single rfl i q

/-- Entry (b, s, t) of the scores product into the zero accumulator is the inner product of row `s` of the left
    operand and row `t` of the right operand, both of batch `b`. -/
theorem scores_apply (x : FVec Ideal S2x2048x64 .bf16) (w : FVec Ideal S2x256x64 .bf16)
    (b : Fin 2) (s : Fin 2048) (t : Fin 256) :
    matmul dQK none x w (constant (F := Ideal) S2x2048x256 .f32 0x00000000#32) (ix3 b s t)
      = ∑ d : Fin 64, x (ix3 b s d) * w (ix3 b t d) := by
  show FloatOps.matmul dQK none x w (constant (F := Ideal) S2x2048x256 .f32 0x00000000#32) (ix3 b s t) = _
  rw [Ideal.matmul_constant_zero_apply, ← Equiv.sum_comp (contrEquiv1 dQK 64 rfl rfl).symm]
  refine Finset.sum_congr rfl fun d _ => ?_
  have hk := contrEquiv1_symm_val dQK 64 rfl rfl d
  have el : dQK.lhsIdx (ix3 b s t) ((contrEquiv1 dQK 64 rfl rfl).symm d) = ix3 b s d := funext fun a => Fin.ext (by
    match a with
    | ⟨0, _⟩ => exact qk_lhs0 _ _
    | ⟨1, _⟩ => exact qk_lhs1 _ _
    | ⟨2, _⟩ => exact (qk_lhs2 _ _).trans hk)
  have er : dQK.rhsIdx (ix3 b s t) ((contrEquiv1 dQK 64 rfl rfl).symm d) = ix3 b t d := funext fun a => Fin.ext (by
    match a with
    | ⟨0, _⟩ => exact qk_rhs0 _ _
    | ⟨1, _⟩ => exact qk_rhs1 _ _
    | ⟨2, _⟩ => exact (qk_rhs2 _ _).trans hk)
  rw [el, er]

/-! ## The update product's operand indices -/

theorem pv_lhs0 (i : S2x2048x64.Idx) (q : dPV.contr.Idx) : (dPV.lhsIdx i q 0).val = (i 0).val := by
  unfold DotDims.lhsIdx
  rw [dif_pos (show (0 : Fin S2x2048x256.rank) ∈ dPV.lhsBatch by decide)]
  rfl
theorem pv_lhs1 (i : S2x2048x64.Idx) (q : dPV.contr.Idx) : (dPV.lhsIdx i q 1).val = (i 1).val := by
  unfold DotDims.lhsIdx
  rw [dif_neg (show ¬(1 : Fin S2x2048x256.rank) ∈ dPV.lhsBatch by decide),
    dif_pos (show (1 : Fin S2x2048x256.rank) ∈ dPV.lhsNonContracting by decide)]
  rfl
theorem pv_lhs2 (i : S2x2048x64.Idx) (q : dPV.contr.Idx) : (dPV.lhsIdx i q 2).val = (q ⟨0, by decide⟩).val :=
  dPV.lhsIdx_val_of_single rfl i q
theorem pv_rhs0 (i : S2x2048x64.Idx) (q : dPV.contr.Idx) : (dPV.rhsIdx i q 0).val = (i 0).val := by
  unfold DotDims.rhsIdx
  rw [dif_pos (show (0 : Fin S2x256x64.rank) ∈ dPV.rhsBatch by decide)]
  rfl
theorem pv_rhs1 (i : S2x2048x64.Idx) (q : dPV.contr.Idx) : (dPV.rhsIdx i q 1).val = (q ⟨0, by decide⟩).val :=
  dPV.rhsIdx_val_of_single rfl i q
theorem pv_rhs2 (i : S2x2048x64.Idx) (q : dPV.contr.Idx) : (dPV.rhsIdx i q 2).val = (i 2).val := by
  unfold DotDims.rhsIdx
  rw [dif_neg (show ¬(2 : Fin S2x256x64.rank) ∈ dPV.rhsBatch by decide),
    dif_pos (show (2 : Fin S2x256x64.rank) ∈ dPV.rhsNonContracting by decide)]
  rfl

/-- Entry (b, s, d) of the update product into the zero accumulator: row `s` of the left operand against column `d`
    of the right operand, both of batch `b`, summed over the 256 key positions of the tile. -/
theorem update_apply (p : FVec Ideal S2x2048x256 .bf16) (v : FVec Ideal S2x256x64 .bf16)
    (b : Fin 2) (s : Fin 2048) (d : Fin 64) :
    matmul dPV none p v (constant (F := Ideal) S2x2048x64 .f32 0x00000000#32) (ix3 b s d)
      = ∑ t : Fin 256, p (ix3 b s t) * v (ix3 b t d) := by
  show FloatOps.matmul dPV none p v (constant (F := Ideal) S2x2048x64 .f32 0x00000000#32) (ix3 b s d) = _
  rw [Ideal.matmul_constant_zero_apply, ← Equiv.sum_comp (contrEquiv1 dPV 256 rfl rfl).symm]
  refine Finset.sum_congr rfl fun t _ => ?_
  have hk := contrEquiv1_symm_val dPV 256 rfl rfl t
  have el : dPV.lhsIdx (ix3 b s d) ((contrEquiv1 dPV 256 rfl rfl).symm t) = ix3 b s t := funext fun a => Fin.ext (by
    match a with
    | ⟨0, _⟩ => exact pv_lhs0 _ _
    | ⟨1, _⟩ => exact pv_lhs1 _ _
    | ⟨2, _⟩ => exact (pv_lhs2 _ _).trans hk)
  have er : dPV.rhsIdx (ix3 b s d) ((contrEquiv1 dPV 256 rfl rfl).symm t) = ix3 b t d := funext fun a => Fin.ext (by
    match a with
    | ⟨0, _⟩ => exact pv_rhs0 _ _
    | ⟨1, _⟩ => exact (pv_rhs1 _ _).trans hk
    | ⟨2, _⟩ => exact pv_rhs2 _ _)
  rw [el, er]

end Cert.KernelIdeal.Dots

end
-- ==== Proof.LibBatch.lean ====
/-
  Layout readings for a stack of matrices whose blocks carry a unit axis in second position, at any extents and
  any value type.

  A pipelined block of an array [a, H, n, m] taken at one index of axis 1 has shape [a, 1, n, m]; a kernel body
  drops that unit axis to compute on [a, n, m] and puts it back before storing, and spreads a [1, n, m] block over
  the `a` matrices of the stack. Read at an entry written by coordinates:

    * `shapeCast_a1bc_abc_apply`: [a, 1, n, m] viewed as [a, n, m] reads (p, i, j) at (p, 0, i, j);
    * `shapeCast_abc_a1bc_apply`: [a, n, m] viewed as [a, 1, n, m] reads (p, u, i, j) at (p, i, j);
    * `broadcastTo_1bc_abc_apply`: [1, n, m] spread over [a, n, m] reads (p, i, j) at (0, i, j).

  All three are the row-major position, resp. the broadcast's coordinate rule, worked out once (extents of one included).
-/
import Idealize.ShloMosaic.Lib.Pipeline.Value
import Idealize.ShloMosaic.Lib.ValueIdx

noncomputable section

namespace Cert.Lib.Batch

open Idealize.ShloMosaic Idealize.ShloMosaic.ValueIdx

variable {α : Type}

/-- An [a, 1, n, m] array viewed as [a, n, m] reads, at (p, i, j), the operand at (p, 0, i, j): the unit axis
    contributes nothing to the row-major position. -/
theorem shapeCast_a1bc_abc_apply {a n m : ℕ} (x : (⟨4, ![a, 1, n, m]⟩ : Shape).Idx → α)
    (h : (⟨4, ![a, 1, n, m]⟩ : Shape).ShapeCasts ⟨3, ![a, n, m]⟩) (p : Fin a) (i : Fin n) (j : Fin m) :
    shapeCast ⟨3, ![a, n, m]⟩ x h (ix3 p i j) = x (ix4 p (0 : Fin 1) i j) :=
  shapeCast_apply x h _ _ (by
    rw [Shape.rowMajor_val_four, Shape.rowMajor_val_three]
    show ((p.val * 1 + 0) * n + i.val) * m + j.val = (p.val * n + i.val) * m + j.val
    rw [Nat.mul_one, Nat.add_zero])

/-- An [a, n, m] array viewed as [a, 1, n, m] reads, at (p, u, i, j), the operand at (p, i, j). -/
theorem shapeCast_abc_a1bc_apply {a n m : ℕ} (x : (⟨3, ![a, n, m]⟩ : Shape).Idx → α)
    (h : (⟨3, ![a, n, m]⟩ : Shape).ShapeCasts ⟨4, ![a, 1, n, m]⟩) (p : Fin a) (u : Fin 1) (i : Fin n) (j : Fin m) :
    shapeCast ⟨4, ![a, 1, n, m]⟩ x h (ix4 p u i j) = x (ix3 p i j) :=
  shapeCast_apply x h _ _ (by
    have hu : u.val = 0 := by omega
    rw [Shape.rowMajor_val_four, Shape.rowMajor_val_three]
    show (p.val * n + i.val) * m + j.val = ((p.val * 1 + u.val) * n + i.val) * m + j.val
    rw [hu, Nat.mul_one, Nat.add_zero])

/-- A [1, n, m] block spread over the `a` matrices of an [a, n, m] stack reads, at (p, i, j), the block at (0, i, j). -/
theorem broadcastTo_1bc_abc_apply {a n m : ℕ} (x : (⟨3, ![1, n, m]⟩ : Shape).Idx → α)
    (h : (⟨3, ![1, n, m]⟩ : Shape).Broadcasts ⟨3, ![a, n, m]⟩) (p : Fin a) (i : Fin n) (j : Fin m) :
    broadcastTo ⟨3, ![a, n, m]⟩ x h (ix3 p i j) = x (ix3 (0 : Fin 1) i j) :=
  broadcastTo_apply x h _ _ fun c => match c with
    | ⟨0, _⟩ => by
        show (0 : ℕ) = if (1 : ℕ) = 1 then 0 else p.val
        rw [if_pos rfl]
    | ⟨1, _⟩ => by
        show i.val = if n = 1 then 0 else i.val
        split
        · have := i.isLt; omega
        · rfl
    | ⟨2, _⟩ => by
        show j.val = if m = 1 then 0 else j.val
        split
        · have := j.isLt; omega
        · rfl

end Cert.Lib.Batch

end
-- ==== Proof.Payload.lean ====
/-
  The body's pure payloads read at one entry, over the extended reals.

  With the loaded blocks q : [2, 1, 2048, 64] (all query positions of one head), k, v : [2, 1, 256, 64] (one tile of
  256 key positions) and dm : [1, 2048, 256] (the decay of that head at those key positions):

    * the tile of masked scores at (b, s, t) is  (Σ_d q[b, 0, s, d] · k[b, 0, t, d]) · dm[0, s, t]
      — the rounding of q and k to bf16 is the identity on the extended reals, the unit axes are dropped before the
      product, and the decay block is spread over the two batches;
    * stored, it gets the unit head axis back;
    * the accumulator's update at (b, s, d) is  acc[b, s, d] + Σ_t (masked scores)[b, s, t] · v[b, 0, t, d];
    * the cleared accumulator is zero everywhere;
    * the re-shapings to the same shape are the identity, and the copy to the output block restores the unit axis.
-/
import proofs.«145245_j6743098655213_1_alg».proof.Proof.Gen.KernelIdeal.Skeleton
import proofs.«145245_j6743098655213_1_alg».proof.Proof.Dots
import proofs.«145245_j6743098655213_1_alg».proof.Proof.LibBatch
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Cert.KernelIdeal.Dots Cert.Lib.Batch
open Idealize.ShloMosaic Idealize.ShloMosaic.ValueIdx

/-- The tile of masked scores at (b, s, t): the inner product of query row `s` and key row `t` of batch `b`, times the
    decay at (s, t). -/
theorem maskedScores_apply (q : Vec Ideal S2x1x2048x64 .f32) (k : Vec Ideal S2x1x256x64 .f32) (dm : Vec Ideal S1x2048x256 .f32)
    (b : Fin 2) (s : Fin 2048) (t : Fin 256) :
    k0_pay4 (F := Ideal) q k dm (ix3 b s t)
      = (∑ d : Fin 64, q (ix4 b (0 : Fin 1) s d) * k (ix4 b (0 : Fin 1) t d)) * dm (ix3 (0 : Fin 1) s t) := by
  unfold k0_pay4
  refine (mulf_apply _ _ _).trans ?_
  refine congrArg₂ (· * ·) ((scores_apply _ _ b s t).trans (Finset.sum_congr rfl fun d _ => ?_)) ?_
  · show shapeCast S2x2048x64 q _ (ix3 b s d) * shapeCast S2x256x64 k _ (ix3 b t d) = _
    exact congrArg₂ (· * ·) (shapeCast_a1bc_abc_apply q _ b s d) (shapeCast_a1bc_abc_apply k _ b t d)
  · rw [shapeCast_shapeCast]
    exact broadcastTo_1bc_abc_apply dm _ b s t

/-- Stored into the second output's block, the tile has the unit head axis back (any float values). -/
theorem storedScores_apply {F : FTy → Type} [FloatOps F] (q : Vec F S2x1x2048x64 .f32) (k : Vec F S2x1x256x64 .f32)
    (dm : Vec F S1x2048x256 .f32) (b : Fin 2) (u : Fin 1) (s : Fin 2048) (t : Fin 256) :
    k0_pay5 q k dm (ix4 b u s t) = k0_pay4 q k dm (ix3 b s t) := by
  unfold k0_pay5
  exact shapeCast_abc_a1bc_apply _ _ b u s t

/-- The accumulator's update at (b, s, d): what it held plus row `s` of the masked scores against column `d` of the
    value tile. -/
theorem accumulate_apply (q : Vec Ideal S2x1x2048x64 .f32) (k v : Vec Ideal S2x1x256x64 .f32) (dm : Vec Ideal S1x2048x256 .f32)
    (acc : Vec Ideal S2x2048x64 .f32) (b : Fin 2) (s : Fin 2048) (d : Fin 64) :
    k0_pay6 (F := Ideal) q k v dm acc (ix3 b s d)
      = acc (ix3 b s d) + ∑ t : Fin 256, k0_pay4 (F := Ideal) q k dm (ix3 b s t) * v (ix4 b (0 : Fin 1) t d) := by
  unfold k0_pay6
  refine (addf_apply _ _ _).trans ?_
  refine congrArg (acc (ix3 b s d) + ·) ((update_apply _ _ b s d).trans (Finset.sum_congr rfl fun t _ => ?_))
  show k0_pay4 (F := Ideal) q k dm (ix3 b s t) * shapeCast S2x256x64 v _ (ix3 b t d) = _
  exact congrArg (k0_pay4 (F := Ideal) q k dm (ix3 b s t) * ·) (shapeCast_a1bc_abc_apply v _ b t d)

/-- The cleared accumulator is zero at every entry. -/
theorem cleared_apply (i : S2x2048x64.Idx) : k0_pay3 (F := Ideal) i = 0 := by
  unfold k0_pay3
  rw [shapeCast_self]
  exact Ideal.ofBits_zero_f32

/-- Re-shaping the accumulator to its own shape changes nothing (any float values). -/
theorem restored_eq {F : FTy → Type} [FloatOps F] (acc : FVec F S2x2048x64 .f32) : k0_pay1 acc = acc := by
  unfold k0_pay1
  exact shapeCast_self acc _

/-- Copied to the first output's block, the accumulator has the unit head axis back (any float values). -/
theorem copied_apply {F : FTy → Type} [FloatOps F] (acc : Vec F S2x2048x64 .f32) (b : Fin 2) (u : Fin 1) (s : Fin 2048) (d : Fin 64) :
    k0_pay2 acc (ix4 b u s d) = acc (ix3 b s d) := by
  unfold k0_pay2
  exact shapeCast_abc_a1bc_apply _ _ b u s d

end Cert.KernelIdeal.Payload

end
-- ==== Proof.Blocks.lean ====
/-
  The windows' blocks at a grid point, read at one entry of the arrays.

  The grid has 16 · 8 = 128 points; point `t` works on head `t / 8` and on key tile `t % 8` (256 key positions from
  `256 · (t % 8)`). From the printed index maps, decided once over the grid:

    * the Q block is the whole [2, ·, 2048, 64] slab of head `t / 8`:    entry (b, 0, s, d) is Q[b, t/8, s, d];
    * the K and V blocks are that head's rows of the tile:               entry (b, 0, r, d) is K[b, t/8, 256·(t%8) + r, d];
    * the decay block is that head's columns of the tile:                entry (0, s, r)    is D[t/8, s, 256·(t%8) + r];
    * the first output's block is the slab of head `t / 8`, the second output's block that head's columns of the tile.

  A block's entry sits in the array at (block index) · (block extent) + (coordinate inside the block) on every axis.
-/
import proofs.«145245_j6743098655213_1_alg».proof.Proof.Gen.KernelIdeal.Frame
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-! ## The index maps over the grid -/

theorem idx0 : ∀ t : Fin cfg0.N, win0_0.index t (0 : Fin 4) = 0 ∧ win0_0.index t (1 : Fin 4) = t.val / 8
    ∧ win0_0.index t (2 : Fin 4) = 0 ∧ win0_0.index t (3 : Fin 4) = 0 :=
  (by decide +kernel : ∀ t : Fin grid0.N, _)
theorem idx1 : ∀ t : Fin cfg0.N, win0_1.index t (0 : Fin 4) = 0 ∧ win0_1.index t (1 : Fin 4) = t.val / 8
    ∧ win0_1.index t (2 : Fin 4) = t.val % 8 ∧ win0_1.index t (3 : Fin 4) = 0 :=
  (by decide +kernel : ∀ t : Fin grid0.N, _)
theorem idx2 : ∀ t : Fin cfg0.N, win0_2.index t (0 : Fin 4) = 0 ∧ win0_2.index t (1 : Fin 4) = t.val / 8
    ∧ win0_2.index t (2 : Fin 4) = t.val % 8 ∧ win0_2.index t (3 : Fin 4) = 0 :=
  (by decide +kernel : ∀ t : Fin grid0.N, _)
theorem idx3 : ∀ t : Fin cfg0.N, win0_3.index t (0 : Fin 3) = t.val / 8 ∧ win0_3.index t (1 : Fin 3) = 0
    ∧ win0_3.index t (2 : Fin 3) = t.val % 8 :=
  (by decide +kernel : ∀ t : Fin grid0.N, _)
theorem idx4 : ∀ t : Fin cfg0.N, win0_4.index t (0 : Fin 4) = 0 ∧ win0_4.index t (1 : Fin 4) = t.val / 8
    ∧ win0_4.index t (2 : Fin 4) = 0 ∧ win0_4.index t (3 : Fin 4) = 0 :=
  (by decide +kernel : ∀ t : Fin grid0.N, _)
theorem idx5 : ∀ t : Fin cfg0.N, win0_5.index t (0 : Fin 4) = 0 ∧ win0_5.index t (1 : Fin 4) = t.val / 8
    ∧ win0_5.index t (2 : Fin 4) = 0 ∧ win0_5.index t (3 : Fin 4) = t.val % 8 :=
  (by decide +kernel : ∀ t : Fin grid0.N, _)

/-! ## The input blocks at an entry -/

/-- The Q block at point `t`: entry (b, 0, s, d) is Q[b, t/8, s, d]. -/
theorem qBlock_apply (c : Dev nD) (t : Fin cfg0.N) (b : Fin 2) (u : Fin 1) (s : Fin 2048) (d : Fin 64)
    (h : Fin 16) (hh : h.val = t.val / 8) :
    (iblk m c 0 t : Vec F S2x1x2048x64 .f32) (ix4 b u s d) = m ((c : Thread nD τ).loc main_arg0) (ix4 b h s d) := by
  obtain ⟨e0, e1, e2, e3⟩ := idx0 t
  have hu : u.val = 0 := by omega
  unfold iblk
  rw [View.read_apply]
  show V m c main_arg0 (((cfg0.win 0).blk t).view.emb (ix4 b u s d)) = _
  refine congrArg (m ((c : Thread nD τ).loc main_arg0)) (funext fun a => Fin.ext ?_)
  match a with
  | ⟨0, _⟩ => show win0_0.index t (0 : Fin 4) * 2 + 1 * b.val = b.val; omega
  | ⟨1, _⟩ => show win0_0.index t (1 : Fin 4) * 1 + 1 * u.val = h.val; omega
  | ⟨2, _⟩ => show win0_0.index t (2 : Fin 4) * 2048 + 1 * s.val = s.val; omega
  | ⟨3, _⟩ => show win0_0.index t (3 : Fin 4) * 64 + 1 * d.val = d.val; omega

/-- The K block at point `t`: entry (b, 0, r, d) is K[b, t/8, 256·(t%8) + r, d]. -/
theorem kBlock_apply (c : Dev nD) (t : Fin cfg0.N) (b : Fin 2) (u : Fin 1) (r : Fin 256) (d : Fin 64)
    (h : Fin 16) (hh : h.val = t.val / 8) (p : Fin 2048) (hp : p.val = 256 * (t.val % 8) + r.val) :
    (iblk m c 1 t : Vec F S2x1x256x64 .f32) (ix4 b u r d) = m ((c : Thread nD τ).loc main_arg1) (ix4 b h p d) := by
  obtain ⟨e0, e1, e2, e3⟩ := idx1 t
  have hu : u.val = 0 := by omega
  unfold iblk
  rw [View.read_apply]
  show V m c main_arg1 (((cfg0.win 1).blk t).view.emb (ix4 b u r d)) = _
  refine congrArg (m ((c : Thread nD τ).loc main_arg1)) (funext fun a => Fin.ext ?_)
  match a with
  | ⟨0, _⟩ => show win0_1.index t (0 : Fin 4) * 2 + 1 * b.val = b.val; omega
  | ⟨1, _⟩ => show win0_1.index t (1 : Fin 4) * 1 + 1 * u.val = h.val; omega
  | ⟨2, _⟩ => show win0_1.index t (2 : Fin 4) * 256 + 1 * r.val = p.val; omega
  | ⟨3, _⟩ => show win0_1.index t (3 : Fin 4) * 64 + 1 * d.val = d.val; omega

/-- The V block at point `t`: entry (b, 0, r, d) is V[b, t/8, 256·(t%8) + r, d]. -/
theorem vBlock_apply (c : Dev nD) (t : Fin cfg0.N) (b : Fin 2) (u : Fin 1) (r : Fin 256) (d : Fin 64)
    (h : Fin 16) (hh : h.val = t.val / 8) (p : Fin 2048) (hp : p.val = 256 * (t.val % 8) + r.val) :
    (iblk m c 2 t : Vec F S2x1x256x64 .f32) (ix4 b u r d) = m ((c : Thread nD τ).loc main_arg2) (ix4 b h p d) := by
  obtain ⟨e0, e1, e2, e3⟩ := idx2 t
  have hu : u.val = 0 := by omega
  unfold iblk
  rw [View.read_apply]
  show V m c main_arg2 (((cfg0.win 2).blk t).view.emb (ix4 b u r d)) = _
  refine congrArg (m ((c : Thread nD τ).loc main_arg2)) (funext fun a => Fin.ext ?_)
  match a with
  | ⟨0, _⟩ => show win0_2.index t (0 : Fin 4) * 2 + 1 * b.val = b.val; omega
  | ⟨1, _⟩ => show win0_2.index t (1 : Fin 4) * 1 + 1 * u.val = h.val; omega
  | ⟨2, _⟩ => show win0_2.index t (2 : Fin 4) * 256 + 1 * r.val = p.val; omega
  | ⟨3, _⟩ => show win0_2.index t (3 : Fin 4) * 64 + 1 * d.val = d.val; omega

/-- The decay block at point `t`: entry (0, s, r) is D[t/8, s, 256·(t%8) + r]. -/
theorem dBlock_apply (c : Dev nD) (t : Fin cfg0.N) (u : Fin 1) (s : Fin 2048) (r : Fin 256)
    (h : Fin 16) (hh : h.val = t.val / 8) (p : Fin 2048) (hp : p.val = 256 * (t.val % 8) + r.val) :
    (iblk m c 3 t : Vec F S1x2048x256 .f32) (ix3 u s r) = m ((c : Thread nD τ).loc main_arg3) (ix3 h s p) := by
  obtain ⟨e0, e1, e2⟩ := idx3 t
  have hu : u.val = 0 := by omega
  unfold iblk
  rw [View.read_apply]
  show V m c main_arg3 (((cfg0.win 3).blk t).view.emb (ix3 u s r)) = _
  refine congrArg (m ((c : Thread nD τ).loc main_arg3)) (funext fun a => Fin.ext ?_)
  match a with
  | ⟨0, _⟩ => show win0_3.index t (0 : Fin 3) * 1 + 1 * u.val = h.val; omega
  | ⟨1, _⟩ => show win0_3.index t (1 : Fin 3) * 2048 + 1 * s.val = s.val; omega
  | ⟨2, _⟩ => show win0_3.index t (2 : Fin 3) * 256 + 1 * r.val = p.val; omega

end Cert.KernelIdeal.Blocks

end
-- ==== Proof.Spec.lean ====
/-
  Retention without softmax, as one function of the four argument arrays.

  With Q, K, V of shape [2, 16, 2048, 64] (batch, head, position, feature) and the decay mask D of shape
  [16, 2048, 2048] (head, query position, key position):

      scores b h s t = Σ_d Q[b, h, s, d] · K[b, h, t, d]
      MSR[b, h, s, t] = scores b h s t · D[h, s, t]
      out[b, h, s, d] = Σ_t MSR[b, h, s, t] · V[b, h, t, d]

  over the extended reals. Both results are stated coordinate by coordinate (`msrAt`, `outAt`) and as whole arrays
  (`msr`, `out`).
-/
import Idealize.ShloMosaic.PureOps.Ideal
import Idealize.ShloMosaic.Lib.ValueIdx

noncomputable section

open scoped BigOperators

namespace Cert.Retention

open Idealize.ShloMosaic Idealize.ShloMosaic.ValueIdx

/-- The shape of Q, K, V and of the second result's companion `out`. -/
abbrev SQ : Shape := ⟨4, ![2, 16, 2048, 64]⟩
/-- The shape of the decay mask. -/
abbrev SD : Shape := ⟨3, ![16, 2048, 2048]⟩
/-- The shape of the masked scores. -/
abbrev SM : Shape := ⟨4, ![2, 16, 2048, 2048]⟩

/-- The score of query position `s` against key position `t` in batch `b`, head `h`: the inner product of the two
    feature rows. -/
def scores (Q K : SQ.Idx → EReal) (b : Fin 2) (h : Fin 16) (s t : Fin 2048) : EReal :=
  ∑ d : Fin 64, Q (ix4 b h s d) * K (ix4 b h t d)

/-- The masked score: the score times the head's decay at (s, t), the same for both batches. -/
def msrAt (Q K : SQ.Idx → EReal) (D : SD.Idx → EReal) (b : Fin 2) (h : Fin 16) (s t : Fin 2048) : EReal :=
  scores Q K b h s t * D (ix3 h s t)

/-- The masked scores as an array. -/
def msr (Q K : SQ.Idx → EReal) (D : SD.Idx → EReal) : SM.Idx → EReal :=
  fun i => msrAt Q K D (i 0) (i 1) (i 2) (i 3)

/-- The retention output at (b, h, s, d): the masked scores of row `s` against column `d` of V, summed over all
    2048 key positions. -/
def outAt (Q K V : SQ.Idx → EReal) (D : SD.Idx → EReal) (b : Fin 2) (h : Fin 16) (s : Fin 2048) (d : Fin 64) : EReal :=
  ∑ t : Fin 2048, msrAt Q K D b h s t * V (ix4 b h t d)

/-- The retention output as an array. -/
def out (Q K V : SQ.Idx → EReal) (D : SD.Idx → EReal) : SQ.Idx → EReal :=
  fun i => outAt Q K V D (i 0) (i 1) (i 2) (i 3)

end Cert.Retention

end
-- ==== Proof.Msr.lean ====
/-
  The second result: the array of masked scores after the run.

  Every grid point writes its block of the second output back, and in each of the body's three ways of running the
  block holds the tile of masked scores of the point's Q, K and decay blocks. Read at an entry (b, 0, s, r) of the
  block of point `t`, that tile is the specification's masked score at (b, t/8, s, 256·(t%8) + r), which is where the
  block's entry sits in the array. The 128 blocks tile the array (the point of (b, h, s, p) is 8·h + p/256), so
  the array ends holding the specification's masked scores of the argument arrays.
-/
import proofs.«145245_j6743098655213_1_alg».proof.Proof.Gen.KernelIdeal.Value
import proofs.«145245_j6743098655213_1_alg».proof.Proof.Pieces
import proofs.«145245_j6743098655213_1_alg».proof.Proof.Payload
import proofs.«145245_j6743098655213_1_alg».proof.Proof.Blocks
import proofs.«145245_j6743098655213_1_alg».proof.Proof.Spec

noncomputable section

open scoped BigOperators

namespace Cert.KernelIdeal.Msr

open Cert.KernelIdeal Cert.KernelIdeal.Gen Cert.KernelIdeal.Pieces Cert.KernelIdeal.Payload Cert.KernelIdeal.Blocks
open Cert.Retention
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The specification's masked scores of the argument arrays as launched, as contents of the second result. -/
abbrev msrArr (c : Dev nD) : Buf (Elt Ideal) ((c : Thread nD τ).loc main_v0_1) :=
  msr (m ((c : Thread nD τ).loc main_arg0)) (m ((c : Thread nD τ).loc main_arg1)) (m ((c : Thread nD τ).loc main_arg3))

/-- The tile of masked scores of point `t`'s blocks at (b, s, r) is the specification's masked score at
    (b, t/8, s, 256·(t%8) + r). -/
theorem tile_apply (c : Dev nD) (t : Fin cfg0.N) (b : Fin 2) (s : Fin 2048) (r : Fin 256)
    (h : Fin 16) (hh : h.val = t.val / 8) (p : Fin 2048) (hp : p.val = 256 * (t.val % 8) + r.val) :
    k0_pay4 (F := Ideal) (iblk m c 0 t) (iblk m c 1 t) (iblk m c 3 t) (ix3 b s r)
      = msrAt (m ((c : Thread nD τ).loc main_arg0)) (m ((c : Thread nD τ).loc main_arg1)) (m ((c : Thread nD τ).loc main_arg3)) b h s p := by
  refine (maskedScores_apply (iblk m c 0 t) (iblk m c 1 t) (iblk m c 3 t) b s r).trans ?_
  unfold msrAt scores
  exact congrArg₂ (· * ·)
    (Finset.sum_congr rfl fun d _ => congrArg₂ (· * ·) (qBlock_apply m c t b 0 s d h hh) (kBlock_apply m c t b 0 r d h hh p hp))
    (dBlock_apply m c t 0 s r h hh p hp)

/-- What any point writes back to the second result: the stored tile of its blocks. -/
theorem flushed_tile (c : Dev nD) (t : Fin cfg0.N) :
    (dats m 0 c).flushed 5 t
      = (cfg0.win 5).cut (grid0.coords t) (k0_pay5 (iblk m c 0 t) (iblk m c 1 t) (iblk m c 3 t)) := by
  have hN : t.val < 128 := lt_of_lt_of_eq t.isLt (show cfg0.N = 128 from N_0)
  by_cases h0 : t.val % 8 = 0
  · have h1 : ¬t.val % 8 = 7 := by omega
    rw [Cert.KernelIdeal.Value.flushed5_A m c t h0 h1, msrBlock_A]
  · by_cases h1 : t.val % 8 = 7
    · rw [Cert.KernelIdeal.Value.flushed5_C m c t h0 h1, msrBlock_C]
    · rw [Cert.KernelIdeal.Value.flushed5_B m c t h0 h1, msrBlock_B]

/-- What point `t` writes back is block `t` of the specification's masked scores. -/
theorem flushed_eq (c : Dev nD) (t : Fin cfg0.N) :
    (dats m 0 c).flushed 5 t = ((cfg0.win 5).blk t).view.read (Elt Ideal) (msrArr m c) := by
  rw [flushed_tile]
  obtain ⟨e0, e1, e2, e3⟩ := idx5 t
  have hN : t.val < 128 := lt_of_lt_of_eq t.isLt (show cfg0.N = 128 from N_0)
  funext y
  rw [View.read_apply]
  obtain ⟨b, u, s, r, rfl⟩ : ∃ (b : Fin 2) (u : Fin 1) (s : Fin 2048) (r : Fin 256), y = ix4 b u s r :=
    ⟨y 0, y 1, y 2, y 3, eq_ix4 y⟩
  show k0_pay5 (iblk m c 0 t) (iblk m c 1 t) (iblk m c 3 t) (ix4 b u s r)
    = msrArr m c (((cfg0.win 5).blk t).view.emb (ix4 b u s r))
  have hu : u.val = 0 := by omega
  have hemb : ((cfg0.win 5).blk t).view.emb (ix4 b u s r)
      = (ix4 b (⟨t.val / 8, by omega⟩ : Fin 16) s (⟨256 * (t.val % 8) + r.val, by omega⟩ : Fin 2048) : SM.Idx) := by
    funext a; apply Fin.ext
    match a with
    | ⟨0, _⟩ => show win0_5.index t (0 : Fin 4) * 2 + 1 * b.val = b.val; omega
    | ⟨1, _⟩ => show win0_5.index t (1 : Fin 4) * 1 + 1 * u.val = t.val / 8; omega
    | ⟨2, _⟩ => show win0_5.index t (2 : Fin 4) * 2048 + 1 * s.val = s.val; omega
    | ⟨3, _⟩ => show win0_5.index t (3 : Fin 4) * 256 + 1 * r.val = 256 * (t.val % 8) + r.val; omega
  rw [hemb]
  exact (storedScores_apply _ _ _ b u s r).trans (tile_apply m c t b s r _ rfl _ rfl)

/-- An index of the array is in point `t`'s block iff each coordinate is in the block's range on its axis. -/
theorem mem_blk (t : Fin cfg0.N) (i : S2x16x2048x2048.Idx) :
    i ∈ ((cfg0.win 5).blk t).view.set ↔ ∀ a : Fin 4, win0_5.index t a * S2x1x2048x256.size a ≤ (i a).val
      ∧ (i a).val < win0_5.index t a * S2x1x2048x256.size a + S2x1x2048x256.size a := by
  show i ∈ ((View.whole main_v0_1).slice (win0_5.rect t)).set ↔ _
  rw [View.set_slice_whole, Rect.mem_set_unit]
  exact Iff.rfl

/-- Every index of the array lies in the block of the point of its head and key tile. -/
theorem cover (i : S2x16x2048x2048.Idx) :
    ∃ t : Fin cfg0.N, (cfg0.win 5).flush t = true ∧ i ∈ ((cfg0.win 5).blk t).view.set := by
  have hN : cfg0.N = 128 := N_0
  have h0 : (i 0).val < 2 := (i 0).isLt
  have h1 : (i 1).val < 16 := (i 1).isLt
  have h2 : (i 2).val < 2048 := (i 2).isLt
  have h3 : (i 3).val < 2048 := (i 3).isLt
  let t : Fin cfg0.N := ⟨8 * (i 1).val + (i 3).val / 256, by rw [hN]; omega⟩
  have ht : t.val = 8 * (i 1).val + (i 3).val / 256 := rfl
  obtain ⟨e0, e1, e2, e3⟩ := idx5 t
  refine ⟨t, flush0_5 t, ?_⟩
  rw [mem_blk]
  intro a
  match a with
  | ⟨0, _⟩ => show win0_5.index t (0 : Fin 4) * 2 ≤ (i 0).val ∧ (i 0).val < win0_5.index t (0 : Fin 4) * 2 + 2; omega
  | ⟨1, _⟩ => show win0_5.index t (1 : Fin 4) * 1 ≤ (i 1).val ∧ (i 1).val < win0_5.index t (1 : Fin 4) * 1 + 1; omega
  | ⟨2, _⟩ => show win0_5.index t (2 : Fin 4) * 2048 ≤ (i 2).val ∧ (i 2).val < win0_5.index t (2 : Fin 4) * 2048 + 2048; omega
  | ⟨3, _⟩ => show win0_5.index t (3 : Fin 4) * 256 ≤ (i 3).val ∧ (i 3).val < win0_5.index t (3 : Fin 4) * 256 + 256; omega

/-- After the run the second result holds the specification's masked scores of the argument arrays. -/
theorem final (c : Dev nD) : (dats m 0 c).arrAt 5 cfg0.N = msrArr m c :=
  (dats m 0 c).arrAt_eq_of_cover 5 (msrArr m c) (fun t _ => flushed_eq m c t) (cover)

end Cert.KernelIdeal.Msr

end
-- ==== Proof.LibBlockSum.lean ====
/-
  General facts for a sum computed block by block, and for the words a blocked one-hot comparison meets.

  * `sum_range_blocks`: in any commutative additive monoid a sum over `B · K` consecutive naturals is the sum of its
    `K` consecutive blocks of `B` terms (no finiteness or cancellation: it holds on the extended reals);
    `sum_fin_blocks` is the same with the outer sum over `Fin (B · K)` and the inner sums over `Fin B`.
  * `cmpi_eq_comm`: the integer equality test does not depend on the order of its operands.
  * `ofNat_add_ofNat_mul`: the word of lane `j` plus the word of `k` times the word of `B` is the word of
    `B · k + j` — the code a lane of block `k` stands for — at 32 bits, whatever the sizes (both sides wrap alike).
-/
import Idealize.ShloMosaic.PureOps.Ideal

open scoped BigOperators
open Idealize.ShloMosaic

namespace Cert.Lib.BlockSum

/-- A sum over `B · K` consecutive naturals is the sum of its `K` consecutive blocks of `B`. -/
theorem sum_range_blocks {M : Type*} [AddCommMonoid M] (f : ℕ → M) (B : ℕ) :
    ∀ K : ℕ, ∑ r ∈ Finset.range (B * K), f r = ∑ k ∈ Finset.range K, ∑ j ∈ Finset.range B, f (B * k + j)
  | 0 => by simp
  | K + 1 => by
    rw [Nat.mul_succ, Finset.sum_range_add, Finset.sum_range_succ, sum_range_blocks f B K]

/-- The same over finite index types: `B · K` terms are `K` blocks of `B`. -/
theorem sum_fin_blocks {M : Type*} [AddCommMonoid M] (f : ℕ → M) (B K : ℕ) :
    ∑ r : Fin (B * K), f r.val = ∑ k ∈ Finset.range K, ∑ j : Fin B, f (B * k + j.val) := by
  rw [Fin.sum_univ_eq_sum_range f (B * K), sum_range_blocks f B K]
  exact Finset.sum_congr rfl fun k _ => (Fin.sum_univ_eq_sum_range (fun j => f (B * k + j)) B).symm

/-- The equality test of two words does not depend on the order of its operands. -/
theorem cmpi_eq_comm {w : ℕ} (a b : BitVec w) : IntOp.cmpi .eq a b = IntOp.cmpi .eq b a := by
  unfold IntOp.cmpi
  exact congrArg BitVec.ofBool BEq.comm

/-- The word of `B · k + j` from the lane's word `j`, the block's word `k` and the block length's word `B`. -/
theorem ofNat_add_ofNat_mul (j k B : ℕ) :
    BitVec.ofNat 32 j + BitVec.ofNat 32 k * BitVec.ofNat 32 B = BitVec.ofNat 32 (B * k + j) := by
  rw [BitVec.ofNat_add, BitVec.ofNat_mul, BitVec.add_comm, BitVec.mul_comm]

end Cert.Lib.BlockSum
-- ==== Proof.Out.lean ====
/-
  The first result: the retention output after the run.

  For a fixed head the eight grid points k = 0 … 7 walk over the key tiles. The accumulator is cleared at k = 0 and
  at every point gains (masked scores of the tile) · (V tile): at entry (b, s, d) the sum over the tile's 256 key
  positions p of MSR[b, h, s, p] · V[b, h, p, d]. So after point 8·h + k it holds, from zero, the sum of the first
  k + 1 tiles' contributions — the fold of the run unrolled once, with no enumeration of the grid. At k = 7 the
  accumulator is copied to the output block, which is the whole [2, ·, 2048, 64] slab of head h, and written back;
  the eight tiles of 256 make up all 2048 key positions, so the slab holds the specification's output. The sixteen
  slabs tile the array.
-/
import proofs.«145245_j6743098655213_1_alg».proof.Proof.Gen.KernelIdeal.Value
import proofs.«145245_j6743098655213_1_alg».proof.Proof.Pieces
import proofs.«145245_j6743098655213_1_alg».proof.Proof.Payload
import proofs.«145245_j6743098655213_1_alg».proof.Proof.Blocks
import proofs.«145245_j6743098655213_1_alg».proof.Proof.Msr
import proofs.«145245_j6743098655213_1_alg».proof.Proof.Spec
import proofs.«145245_j6743098655213_1_alg».proof.Proof.LibBlockSum

noncomputable section

open scoped BigOperators

namespace Cert.KernelIdeal.Out

open Cert.KernelIdeal Cert.KernelIdeal.Gen Cert.KernelIdeal.Pieces Cert.KernelIdeal.Payload Cert.KernelIdeal.Blocks
open Cert.KernelIdeal.Msr (tile_apply)
open Cert.Retention
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The specification's output of the argument arrays as launched, as contents of the first result. -/
abbrev outArr (c : Dev nD) : Buf (Elt Ideal) ((c : Thread nD τ).loc main_v0_0) :=
  out (m ((c : Thread nD τ).loc main_arg0)) (m ((c : Thread nD τ).loc main_arg1)) (m ((c : Thread nD τ).loc main_arg2)) (m ((c : Thread nD τ).loc main_arg3))

/-! ## One key position's contribution, with head and key position as naturals -/

/-- The contribution of key position `pn` of head `hn` to the output at (b, ·, s, d): MSR[b, hn, s, pn] · V[b, hn, pn, d]
    (zero outside the array, which is never used). -/
def term (c : Dev nD) (b : Fin 2) (s : Fin 2048) (d : Fin 64) (hn pn : ℕ) : EReal :=
  if hh : hn < 16 then
    if hp : pn < 2048 then
      msrAt (m ((c : Thread nD τ).loc main_arg0)) (m ((c : Thread nD τ).loc main_arg1)) (m ((c : Thread nD τ).loc main_arg3)) b ⟨hn, hh⟩ s ⟨pn, hp⟩
        * m ((c : Thread nD τ).loc main_arg2) (ix4 b (⟨hn, hh⟩ : Fin 16) (⟨pn, hp⟩ : Fin 2048) d)
    else 0
  else 0

theorem term_eq (c : Dev nD) (b : Fin 2) (s : Fin 2048) (d : Fin 64) (h : Fin 16) (p : Fin 2048) :
    term m c b s d h.val p.val
      = msrAt (m ((c : Thread nD τ).loc main_arg0)) (m ((c : Thread nD τ).loc main_arg1)) (m ((c : Thread nD τ).loc main_arg3)) b h s p * m ((c : Thread nD τ).loc main_arg2) (ix4 b h p d) := by
  unfold term
  rw [dif_pos h.isLt, dif_pos p.isLt]

/-- What grid point `n` adds to the accumulator at an entry: its tile's 256 contributions. -/
def addend (c : Dev nD) (n : ℕ) (i : S2x2048x64.Idx) : EReal :=
  ∑ r : Fin 256, term m c (i 0) (i 1) (i 2) (n / 8) (256 * (n % 8) + r.val)

/-- The specification's output at an entry, tile by tile: 2048 key positions are 8 tiles of 256. -/
theorem outAt_tiles (c : Dev nD) (b : Fin 2) (h : Fin 16) (s : Fin 2048) (d : Fin 64) :
    outAt (m ((c : Thread nD τ).loc main_arg0)) (m ((c : Thread nD τ).loc main_arg1)) (m ((c : Thread nD τ).loc main_arg2)) (m ((c : Thread nD τ).loc main_arg3)) b h s d
      = ∑ k ∈ Finset.range 8, ∑ r : Fin 256, term m c b s d h.val (256 * k + r.val) := by
  unfold outAt
  refine Eq.trans ?_ (Cert.Lib.BlockSum.sum_fin_blocks (fun p => term m c b s d h.val p) 256 8)
  exact Finset.sum_congr rfl fun p _ => (term_eq m c b s d h p).symm

/-! ## One point's update of the accumulator -/

/-- At any point the accumulator's new contents at an entry are the old ones plus the point's addend. -/
theorem step_apply (c : Dev nD) (t : Fin cfg0.N) (acc : Vec Ideal S2x2048x64 .f32) (i : S2x2048x64.Idx) :
    k0_pay1 (k0_pay6 (F := Ideal) (iblk m c 0 t) (iblk m c 1 t) (iblk m c 2 t) (iblk m c 3 t) acc) i = acc i + addend m c t.val i := by
  have hN : t.val < 128 := lt_of_lt_of_eq t.isLt (show cfg0.N = 128 from N_0)
  obtain ⟨b, s, d, rfl⟩ : ∃ (b : Fin 2) (s : Fin 2048) (d : Fin 64), i = ix3 b s d := ⟨i 0, i 1, i 2, eq_ix3 i⟩
  rw [restored_eq]
  refine (accumulate_apply (iblk m c 0 t) (iblk m c 1 t) (iblk m c 2 t) (iblk m c 3 t) acc b s d).trans ?_
  refine congrArg (acc (ix3 b s d) + ·) (Finset.sum_congr rfl fun r _ => ?_)
  show _ = term m c b s d (t.val / 8) (256 * (t.val % 8) + r.val)
  refine Eq.trans ?_ (term_eq m c b s d ⟨t.val / 8, by omega⟩ ⟨256 * (t.val % 8) + r.val, by omega⟩).symm
  exact congrArg₂ (· * ·) (tile_apply m c t b s r _ rfl _ rfl) (vBlock_apply m c t b 0 r d _ rfl _ rfl)

/-- At the first point of a head (k = 0) the accumulator is rebuilt from the cleared block, whatever it held. -/
theorem reset_eq (c : Dev nD) (n : ℕ) (hn : n < cfg0.N) (h0 : n % 8 = 0) (acc : Vec Ideal S2x2048x64 .f32) :
    Cert.KernelIdeal.Value.scAt0_0 m c n hn acc
      = k0_pay1 (k0_pay6 (F := Ideal) (iblk m c 0 ⟨n, hn⟩) (iblk m c 1 ⟨n, hn⟩) (iblk m c 2 ⟨n, hn⟩) (iblk m c 3 ⟨n, hn⟩) (k0_pay3 (F := Ideal))) := by
  have h1 : ¬n % 8 = 7 := by omega
  unfold Cert.KernelIdeal.Value.scAt0_0
  rw [dif_pos h0, dif_neg h1]
  exact acc_A c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) scM0_0 (Memref.isWhole_whole _) ((hcond0_0 ⟨n, hn⟩).mpr h0) (fun h => h1 ((hcond0_1 ⟨n, hn⟩).mp h)) (iblk m c 0 ⟨n, hn⟩) (iblk m c 1 ⟨n, hn⟩) (iblk m c 2 ⟨n, hn⟩) (iblk m c 3 ⟨n, hn⟩)

/-- At every other point (k > 0) it is updated from what the point before left. -/
theorem carry_eq (c : Dev nD) (n : ℕ) (hn : n < cfg0.N) (h0 : ¬n % 8 = 0) (acc : Vec Ideal S2x2048x64 .f32) :
    Cert.KernelIdeal.Value.scAt0_0 m c n hn acc = k0_pay1 (k0_pay6 (F := Ideal) (iblk m c 0 ⟨n, hn⟩) (iblk m c 1 ⟨n, hn⟩) (iblk m c 2 ⟨n, hn⟩) (iblk m c 3 ⟨n, hn⟩) acc) := by
  unfold Cert.KernelIdeal.Value.scAt0_0
  rw [dif_neg h0]
  by_cases h1 : n % 8 = 7
  · rw [dif_pos h1]
    exact acc_C c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) scM0_0 (Memref.isWhole_whole _) (fun h => h0 ((hcond0_0 ⟨n, hn⟩).mp h)) ((hcond0_1 ⟨n, hn⟩).mpr h1) (iblk m c 0 ⟨n, hn⟩) (iblk m c 1 ⟨n, hn⟩) (iblk m c 2 ⟨n, hn⟩) (iblk m c 3 ⟨n, hn⟩) acc
  · rw [dif_neg h1]
    exact acc_B c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) scM0_0 (Memref.isWhole_whole _) (fun h => h0 ((hcond0_0 ⟨n, hn⟩).mp h)) (fun h => h1 ((hcond0_1 ⟨n, hn⟩).mp h)) (iblk m c 0 ⟨n, hn⟩) (iblk m c 1 ⟨n, hn⟩) (iblk m c 2 ⟨n, hn⟩) (iblk m c 3 ⟨n, hn⟩) acc

/-! ## The accumulator after a point: the fold unrolled -/

/-- After point `t` the accumulator holds, from zero, the addends of its head's points up to `t`. -/
theorem scratch_apply (c : Dev nD) (t : Fin cfg0.N) (i : S2x2048x64.Idx) :
    (outsAt0 m c t.val t.isLt).2.2 i
      = 0 + ∑ k ∈ Finset.range (t.val % 8 + 1), addend m c (8 * (t.val / 8) + k) i := by
  have hN : cfg0.N = 128 := N_0
  rw [Cert.KernelIdeal.Value.soutsAt0_0_eq m c t]
  exact Pipeline.accAt_add_apply
    (fun n h => Cert.KernelIdeal.Value.scAt0_0 m c n h (VS0_0.read (Elt Ideal) VS0_0.junk))
    (Cert.KernelIdeal.Value.scAt0_0 m c) (fun _ => 0) (addend m c) (8 * (t.val / 8)) 7
    (fun h j => by
      show Cert.KernelIdeal.Value.scAt0_0 m c (8 * (t.val / 8)) h _ j = 0 + addend m c (8 * (t.val / 8)) j
      rw [reset_eq m c _ h (by omega)]
      refine (step_apply m c ⟨8 * (t.val / 8), h⟩ _ j).trans ?_
      exact congrArg (· + addend m c (8 * (t.val / 8)) j) (cleared_apply j))
    (fun n h acc j hb he => by
      rw [carry_eq m c n h (by omega) acc]
      exact step_apply m c ⟨n, h⟩ acc j)
    (t.val % 8) (by omega) _ i

/-! ## What is written back, and the array -/

/-- At k = 7 what is written back is the accumulator after the point, with the unit head axis restored. -/
theorem flushed_acc (c : Dev nD) (t : Fin cfg0.N) (h1 : t.val % 8 = 7) :
    (dats m 0 c).flushed 4 t
      = (cfg0.win 4).cut (grid0.coords t) (k0_pay2 ((outsAt0 m c t.val t.isLt).2.2)) := by
  have h0 : ¬t.val % 8 = 0 := by omega
  have hacc : (outsAt0 m c t.val t.isLt).2.2
      = k0_pay1 (k0_pay6 (F := Ideal) (iblk m c 0 t) (iblk m c 1 t) (iblk m c 2 t) (iblk m c 3 t) (outsAt0 m c (t.val - 1) (Nat.lt_of_le_of_lt (Nat.sub_le _ _) t.isLt)).2.2) := by
    rw [outsAt0_C m c t h0 h1]
    dsimp only
    rw [acc_C]
  rw [Cert.KernelIdeal.Value.flushed4_C m c t h0 h1, outBlock_C, hacc]

/-- What a writing point writes back is its block of the specification's output. -/
theorem flushed_eq (c : Dev nD) (t : Fin cfg0.N) (hf : (cfg0.win 4).flush t = true) :
    (dats m 0 c).flushed 4 t = ((cfg0.win 4).blk t).view.read (Elt Ideal) (outArr m c) := by
  have h1 : t.val % 8 = 7 := (flush0_4 t).mp hf
  have hN : t.val < 128 := lt_of_lt_of_eq t.isLt (show cfg0.N = 128 from N_0)
  obtain ⟨e0, e1, e2, e3⟩ := idx4 t
  rw [flushed_acc m c t h1]
  funext y
  rw [View.read_apply]
  obtain ⟨b, u, s, d, rfl⟩ : ∃ (b : Fin 2) (u : Fin 1) (s : Fin 2048) (d : Fin 64), y = ix4 b u s d :=
    ⟨y 0, y 1, y 2, y 3, eq_ix4 y⟩
  show k0_pay2 ((outsAt0 m c t.val t.isLt).2.2) (ix4 b u s d)
    = outArr m c (((cfg0.win 4).blk t).view.emb (ix4 b u s d))
  have hu : u.val = 0 := by omega
  have hemb : ((cfg0.win 4).blk t).view.emb (ix4 b u s d)
      = (ix4 b (⟨t.val / 8, by omega⟩ : Fin 16) s d : SQ.Idx) := by
    funext a; apply Fin.ext
    match a with
    | ⟨0, _⟩ => show win0_4.index t (0 : Fin 4) * 2 + 1 * b.val = b.val; omega
    | ⟨1, _⟩ => show win0_4.index t (1 : Fin 4) * 1 + 1 * u.val = t.val / 8; omega
    | ⟨2, _⟩ => show win0_4.index t (2 : Fin 4) * 2048 + 1 * s.val = s.val; omega
    | ⟨3, _⟩ => show win0_4.index t (3 : Fin 4) * 64 + 1 * d.val = d.val; omega
  rw [hemb]
  refine (copied_apply _ b u s d).trans ((scratch_apply m c t (ix3 b s d)).trans ?_)
  show _ = outAt (m ((c : Thread nD τ).loc main_arg0)) (m ((c : Thread nD τ).loc main_arg1)) (m ((c : Thread nD τ).loc main_arg2)) (m ((c : Thread nD τ).loc main_arg3)) b (⟨t.val / 8, by omega⟩ : Fin 16) s d
  rw [outAt_tiles, h1, zero_add]
  refine Finset.sum_congr rfl fun k hk => ?_
  have hk' : k < 8 := Finset.mem_range.mp hk
  have q1 : (8 * (t.val / 8) + k) / 8 = t.val / 8 := by omega
  have q2 : (8 * (t.val / 8) + k) % 8 = k := by omega
  unfold addend
  rw [q1, q2]

/-- An index of the array is in point `t`'s block iff each coordinate is in the block's range on its axis. -/
theorem mem_blk (t : Fin cfg0.N) (i : S2x16x2048x64.Idx) :
    i ∈ ((cfg0.win 4).blk t).view.set ↔ ∀ a : Fin 4, win0_4.index t a * S2x1x2048x64.size a ≤ (i a).val
      ∧ (i a).val < win0_4.index t a * S2x1x2048x64.size a + S2x1x2048x64.size a := by
  show i ∈ ((View.whole main_v0_0).slice (win0_4.rect t)).set ↔ _
  rw [View.set_slice_whole, Rect.mem_set_unit]
  exact Iff.rfl

/-- Every index of the array lies in the block written at the last point of its head. -/
theorem cover (i : S2x16x2048x64.Idx) :
    ∃ t : Fin cfg0.N, (cfg0.win 4).flush t = true ∧ i ∈ ((cfg0.win 4).blk t).view.set := by
  have hN : cfg0.N = 128 := N_0
  have h0 : (i 0).val < 2 := (i 0).isLt
  have h1 : (i 1).val < 16 := (i 1).isLt
  have h2 : (i 2).val < 2048 := (i 2).isLt
  have h3 : (i 3).val < 64 := (i 3).isLt
  let t : Fin cfg0.N := ⟨8 * (i 1).val + 7, by rw [hN]; omega⟩
  have ht : t.val = 8 * (i 1).val + 7 := rfl
  obtain ⟨e0, e1, e2, e3⟩ := idx4 t
  refine ⟨t, (flush0_4 t).mpr (by omega), ?_⟩
  rw [mem_blk]
  intro a
  match a with
  | ⟨0, _⟩ => show win0_4.index t (0 : Fin 4) * 2 ≤ (i 0).val ∧ (i 0).val < win0_4.index t (0 : Fin 4) * 2 + 2; omega
  | ⟨1, _⟩ => show win0_4.index t (1 : Fin 4) * 1 ≤ (i 1).val ∧ (i 1).val < win0_4.index t (1 : Fin 4) * 1 + 1; omega
  | ⟨2, _⟩ => show win0_4.index t (2 : Fin 4) * 2048 ≤ (i 2).val ∧ (i 2).val < win0_4.index t (2 : Fin 4) * 2048 + 2048; omega
  | ⟨3, _⟩ => show win0_4.index t (3 : Fin 4) * 64 ≤ (i 3).val ∧ (i 3).val < win0_4.index t (3 : Fin 4) * 64 + 64; omega

/-- After the run the first result holds the specification's output of the argument arrays. -/
theorem final (c : Dev nD) : (dats m 0 c).arrAt 4 cfg0.N = outArr m c :=
  (dats m 0 c).arrAt_eq_of_cover 4 (outArr m c) (flushed_eq m c) (cover)

end Cert.KernelIdeal.Out

end
-- ==== Proof.RefSpec.lean ====
/-
  The reference computes the specification.

  Read one operation at a time, the reference's masked scores at (b, h, s, t) are the contraction of Q's row
  (b, h, s) with K's row (b, h, t) over the 64 features, times the decay mask spread over the batch axis, which at
  (b, h, s, t) reads D[h, s, t]; and its output at (b, h, s, d) contracts the masked scores' row (b, h, s) with V's
  column (b, h, ·, d) over all 2048 key positions. These are `msr` and `out` of the specification, entry by entry:
  only the spelling of the indices differs.
-/
import proofs.«145245_j6743098655213_1_alg».proof.Proof.Gen.ReferenceIdeal.Read
import proofs.«145245_j6743098655213_1_alg».proof.Proof.Spec

noncomputable section

open scoped BigOperators

namespace Cert.ReferenceIdeal.RefValue

open Cert.ReferenceIdeal Cert.ReferenceIdeal.Read Cert.Retention
open Idealize.ShloMosaic Idealize.ShloMosaic.ValueIdx

/-- The reference's masked scores are the specification's. -/
theorem msr_eq (Q K : (⟨S2x16x2048x64, .f32⟩ : BufTy).Contents (Elt Ideal))
    (D : (⟨S16x2048x2048, .f32⟩ : BufTy).Contents (Elt Ideal)) :
    val_main_v3 (F := Ideal) Q K D = msr Q K D := by
  funext i
  rw [val_main_v3_apply, val_main_v0_apply, val_main_v2_apply, val_main_v1_apply]
  show (∑ k : Fin 64, Q (lidx_main_v0 i k) * K (ridx_main_v0 i k)) * D (idx_main_v1 (idx_main_v2 i))
    = msrAt Q K D (i 0) (i 1) (i 2) (i 3)
  unfold msrAt scores
  have eD : idx_main_v1 (idx_main_v2 i) = (ix3 (i 1 : Fin 16) (i 2 : Fin 2048) (i 3 : Fin 2048) : SD.Idx) :=
    funext fun a => Fin.ext (by match a with | ⟨0, _⟩ => rfl | ⟨1, _⟩ => rfl | ⟨2, _⟩ => rfl)
  have eQ : ∀ k : Fin 64, lidx_main_v0 i k = (ix4 (i 0 : Fin 2) (i 1 : Fin 16) (i 2 : Fin 2048) k : SQ.Idx) :=
    fun k => funext fun a => Fin.ext (by match a with | ⟨0, _⟩ => rfl | ⟨1, _⟩ => rfl | ⟨2, _⟩ => rfl | ⟨3, _⟩ => rfl)
  have eK : ∀ k : Fin 64, ridx_main_v0 i k = (ix4 (i 0 : Fin 2) (i 1 : Fin 16) (i 3 : Fin 2048) k : SQ.Idx) :=
    fun k => funext fun a => Fin.ext (by match a with | ⟨0, _⟩ => rfl | ⟨1, _⟩ => rfl | ⟨2, _⟩ => rfl | ⟨3, _⟩ => rfl)
  exact congrArg₂ (· * ·)
    (Finset.sum_congr rfl fun k _ => congrArg₂ (· * ·) (congrArg Q (eQ k)) (congrArg K (eK k))) (congrArg D eD)

/-- The reference's output is the specification's. -/
theorem out_eq (Q K V : (⟨S2x16x2048x64, .f32⟩ : BufTy).Contents (Elt Ideal))
    (D : (⟨S16x2048x2048, .f32⟩ : BufTy).Contents (Elt Ideal)) :
    val_main_v4 (F := Ideal) Q K V D = out Q K V D := by
  funext i
  rw [val_main_v4_apply, msr_eq]
  show ∑ k : Fin 2048, msr Q K D (lidx_main_v4 i k) * V (ridx_main_v4 i k) = outAt Q K V D (i 0) (i 1) (i 2) (i 3)
  unfold outAt
  have eV : ∀ k : Fin 2048, ridx_main_v4 i k = (ix4 (i 0 : Fin 2) (i 1 : Fin 16) k (i 3 : Fin 64) : SQ.Idx) :=
    fun k => funext fun a => Fin.ext (by match a with | ⟨0, _⟩ => rfl | ⟨1, _⟩ => rfl | ⟨2, _⟩ => rfl | ⟨3, _⟩ => rfl)
  exact Finset.sum_congr rfl fun k _ => congrArg₂ (· * ·) rfl (congrArg V (eV k))

end Cert.ReferenceIdeal.RefValue

end
-- ==== Proof.lean ====
/-
  Retention without softmax: a tiled kernel against its plain reference, equal over the extended reals.

  The arguments are Q, K, V of shape [2, 16, 2048, 64] (batch, head, position, feature) and a decay mask D of shape
  [16, 2048, 2048]. Both programs return

      MSR[b, h, s, t] = (Σ_d Q[b, h, s, d] · K[b, h, t, d]) · D[h, s, t]      and
      out[b, h, s, d] = Σ_t MSR[b, h, s, t] · V[b, h, t, d].

  The reference computes them by two batched contractions around one elementwise product with the mask spread over
  the batch axis. The kernel walks a 16 × 8 grid: for each head it visits the eight tiles of 256 key positions,
  writes the tile of MSR for both batches at once, and adds (tile of MSR) · (tile of V) into an accumulator that
  is cleared at the head's first tile and copied out at its last. Its operands are rounded to bf16 before each
  product, which is the identity on the extended reals.

  So the second result agrees tile by tile, and the first because a sum over 2048 key positions is the sum of its
  eight consecutive blocks of 256, taken from zero — associativity and commutativity of addition only, which hold
  on the extended reals without any finiteness; the precondition is never opened. The idealization rewrote nothing,
  so the preservation claim is trivial, and the three frame claims are the programs' runs with the results dropped.
-/
import proofs.«145245_j6743098655213_1_alg».proof.Defs
import proofs.«145245_j6743098655213_1_alg».proof.Proof.Gen.Kernel
import proofs.«145245_j6743098655213_1_alg».proof.Proof.Gen.Kernel.Skeleton
import proofs.«145245_j6743098655213_1_alg».proof.Proof.Gen.Kernel.Launch
import proofs.«145245_j6743098655213_1_alg».proof.Proof.Gen.Kernel.Points
import proofs.«145245_j6743098655213_1_alg».proof.Proof.Gen.Kernel.Frame
import proofs.«145245_j6743098655213_1_alg».proof.Proof.Gen.KernelIdeal
import proofs.«145245_j6743098655213_1_alg».proof.Proof.Gen.KernelIdeal.Skeleton
import proofs.«145245_j6743098655213_1_alg».proof.Proof.Gen.KernelIdeal.Launch
import proofs.«145245_j6743098655213_1_alg».proof.Proof.Gen.KernelIdeal.Points
import proofs.«145245_j6743098655213_1_alg».proof.Proof.Gen.KernelIdeal.Frame
import proofs.«145245_j6743098655213_1_alg».proof.Proof.Gen.ReferenceIdeal
import proofs.«145245_j6743098655213_1_alg».proof.Proof.Gen.Pre_finite_inputs
import proofs.«145245_j6743098655213_1_alg».proof.Proof.Gen.KernelIdeal.Value
import proofs.«145245_j6743098655213_1_alg».proof.Proof.Gen.ReferenceIdeal.Run
import proofs.«145245_j6743098655213_1_alg».proof.Proof.Gen.ReferenceIdeal.Read
import proofs.«145245_j6743098655213_1_alg».proof.Proof.Msr
import proofs.«145245_j6743098655213_1_alg».proof.Proof.Out
import proofs.«145245_j6743098655213_1_alg».proof.Proof.RefSpec
import Idealize.ShloMosaic.Adequacy
import Idealize.ShloMosaic.Init

noncomputable section

namespace Cert.Proof

open Idealize.ShloMosaic Idealize.SL.Sem

/-- The kernel as printed runs, faults nowhere and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is five host operations in a row: its run with the two results dropped. -/
theorem frame_referenceIdeal : Cert.frame_ReferenceIdeal := fun m ρ _ =>
  (θ_run Cert.ReferenceIdeal.defs _ _).mono (fun _ h c => (h c).2.2)
    (Cert.ReferenceIdeal.Value.run (F := Ideal) m ρ)

/-- The idealization rewrote no operation. -/
theorem preserves : Cert.preserves_Kernel_KernelIdeal := trivial

/-- Over the extended reals the kernel's two result arrays end at the specification's `out` and `msr` of its
    argument arrays, and the reference's at the same two functions of arguments that agree. -/
theorem algebraic : Cert.algebraic_KernelIdeal_ReferenceIdeal := by
  intro m ρ m' ρ' _ hagree
  refine ⟨fun c => Cert.KernelIdeal.Out.outArr m c, fun c => Cert.KernelIdeal.Msr.msrArr m c, ?_, ?_⟩
  · exact (θ_run Cert.KernelIdeal.defs _ _).mono
      (fun r h c => ⟨(h c).1.trans (Cert.KernelIdeal.Out.final m c),
        (h c).2.1.trans (Cert.KernelIdeal.Msr.final m c), (h c).2.2⟩)
      (Cert.KernelIdeal.Value.run_blocks m ρ)
  · refine (θ_run Cert.ReferenceIdeal.defs _ _).mono
      (fun _ h c => ⟨(h c).1.trans ?_, (h c).2.1.trans ?_, (h c).2.2⟩)
      (Cert.ReferenceIdeal.Value.run (F := Ideal) m' ρ')
    · rw [Cert.ReferenceIdeal.Read.val_main_v4_eq, Cert.ReferenceIdeal.RefValue.out_eq,
        (hagree c).1, (hagree c).2.1, (hagree c).2.2.1, (hagree c).2.2.2]
    · rw [Cert.ReferenceIdeal.Read.val_main_v3_eq, Cert.ReferenceIdeal.RefValue.msr_eq,
        (hagree c).1, (hagree c).2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
